-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x200000 : Shape := ⟨2, ![2, 200000]⟩
abbrev S200000 : Shape := ⟨1, ![200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x64 .f32) (main_arg10 : FVec F S64 .f32) (main_arg11 : FVec F S64x1 .f32) (main_arg12 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S200000x128 .f32) (main_arg1 : IVec S2x200000 32) (main_arg2 : IVec S200000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_v13 main_v16
-- ==== Kernel.lean ====
abbrev S200000x128 : Shape := ⟨2, ![200000, 128]⟩
abbrev S2x200000 : Shape := ⟨2, ![2, 200000]⟩
abbrev S200000 : Shape := ⟨1, ![200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x200000 : Shape := ⟨2, ![1, 200000]⟩
abbrev S_ : Shape := ⟨0, ![]⟩
abbrev S200000x1 : Shape := ⟨2, ![200000, 1]⟩
abbrev S1x64 : Shape := ⟨2, ![1, 64]⟩
abbrev S200000x64 : Shape := ⟨2, ![200000, 64]⟩
abbrev S8000x128 : Shape := ⟨2, ![8000, 128]⟩
abbrev S8000x64 : Shape := ⟨2, ![8000, 64]⟩
abbrev S2048x64 : Shape := ⟨2, ![2048, 64]⟩
abbrev S2048 : Shape := ⟨1, ![2048]⟩
abbrev S2048x1 : Shape := ⟨2, ![2048, 1]⟩
abbrev S1x1 : Shape := ⟨2, ![1, 1]⟩

abbrev nBuf : Space → Nat
  | .hbm => 74
  | .vmem => 20
  | .smem => 0
  | _ => 0

abbrev bufTy : (tb : Table) → Fin (tcTables nBuf tb) → BufTy
  | .hbm, ⟨0, _⟩ => ⟨S200000x128, .f32⟩
  | .hbm, ⟨1, _⟩ => ⟨S2x200000, .i32⟩
  | .hbm, ⟨2, _⟩ => ⟨S200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x200000, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S1x200000, .i32⟩
  | .hbm, ⟨25, _⟩ => ⟨S200000, .i32⟩
  | .hbm, ⟨26, _⟩ => ⟨S_, .f32⟩
  | .hbm, ⟨27, _⟩ => ⟨S200000x128, .f32⟩
  | .hbm, ⟨28, _⟩ => ⟨S200000x1, .i32⟩
  | .hbm, ⟨29, _⟩ => ⟨S200000x128, .f32⟩
  | .hbm, ⟨30, _⟩ => ⟨S1x64, .f32⟩
  | .hbm, ⟨31, _⟩ => ⟨S1x64, .f32⟩
  | .hbm, ⟨32, _⟩ => ⟨S200000x64, .f32⟩
  | .hbm, ⟨33, _⟩ => ⟨S1x200000, .i32⟩
  | .hbm, ⟨34, _⟩ => ⟨S200000, .i32⟩
  | .hbm, ⟨35, _⟩ => ⟨S_, .i32⟩
  | .hbm, ⟨36, _⟩ => ⟨S200000, .i32⟩
  | .hbm, ⟨37, _⟩ => ⟨S200000, .i1⟩
  | .hbm, ⟨38, _⟩ => ⟨S_, .i32⟩
  | .hbm, ⟨39, _⟩ => ⟨S200000, .i32⟩
  | .hbm, ⟨40, _⟩ => ⟨S200000, .i32⟩
  | .hbm, ⟨41, _⟩ => ⟨S200000, .i32⟩
  | .hbm, ⟨42, _⟩ => ⟨S200000x1, .i32⟩
  | .hbm, ⟨43, _⟩ => ⟨S200000x64, .f32⟩
  | .hbm, ⟨44, _⟩ => ⟨S1x200000, .i32⟩
  | .hbm, ⟨45, _⟩ => ⟨S200000, .i32⟩
  | .hbm, ⟨46, _⟩ => ⟨S_, .f32⟩
  | .hbm, ⟨47, _⟩ => ⟨S200000x64, .f32⟩
  | .hbm, ⟨48, _⟩ => ⟨S200000x1, .i32⟩
  | .hbm, ⟨49, _⟩ => ⟨S200000x64, .f32⟩
  | .hbm, ⟨50, _⟩ => ⟨S1x64, .f32⟩
  | .hbm, ⟨51, _⟩ => ⟨S1x64, .f32⟩
  | .hbm, ⟨52, _⟩ => ⟨S200000x64, .f32⟩
  | .hbm, ⟨53, _⟩ => ⟨S_, .f32⟩
  | .hbm, ⟨54, _⟩ => ⟨S2048x64, .f32⟩
  | .hbm, ⟨55, _⟩ => ⟨S200000x1, .i32⟩
  | .hbm, ⟨56, _⟩ => ⟨S2048x64, .f32⟩
  | .hbm, ⟨57, _⟩ => ⟨S_, .f32⟩
  | .hbm, ⟨58, _⟩ => ⟨S200000, .f32⟩
  | .hbm, ⟨59, _⟩ => ⟨S_, .f32⟩
  | .hbm, ⟨60, _⟩ => ⟨S2048, .f32⟩
  | .hbm, ⟨61, _⟩ => ⟨S200000x1, .i32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048x1, .f32⟩
  | .hbm, ⟨67, _⟩ => ⟨S2048x64, .f32⟩
  | .hbm, ⟨68, _⟩ => ⟨S2048x64, .f32⟩
  | .hbm, ⟨69, _⟩ => ⟨S2048x1, .f32⟩
  | .hbm, ⟨70, _⟩ => ⟨S1x1, .f32⟩
  | .hbm, ⟨71, _⟩ => ⟨S2048x1, .f32⟩
  | .hbm, ⟨72, _⟩ => ⟨S2048x1, .f32⟩
  | .hbm, ⟨73, _⟩ => ⟨S2048, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | .local _ .vmem, ⟨10, _⟩ => ⟨S8000x64, .f32⟩
  | .local _ .vmem, ⟨11, _⟩ => ⟨S8000x64, .f32⟩
  | .local _ .vmem, ⟨12, _⟩ => ⟨S8000x64, .f32⟩
  | .local _ .vmem, ⟨13, _⟩ => ⟨S8000x64, .f32⟩
  | .local _ .vmem, ⟨14, _⟩ => ⟨S64x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S8000x64, .f32⟩
  | .local _ .vmem, ⟨19, _⟩ => ⟨S8000x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_1 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S_S200000x128 : S_.BroadcastsInDim S200000x128 (![] : Fin 0 → Fin S200000x128.rank)
  shapeCasts_S64_S1x64 : S64.ShapeCasts S1x64
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S200000x64 : S_.BroadcastsInDim S200000x64 (![] : Fin 0 → Fin S200000x64.rank)
  shapeCasts_S8000x64_S8000x64 : S8000x64.ShapeCasts S8000x64
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  dot_S8000x128_S128x64_S8000x64_1_0_0_1_n_n_wf : DotDims.WF S8000x128 S128x64 S8000x64 [1] [0] [0] [1] [] []
  dot_S8000x64_S64x64_S8000x64_1_0_0_1_n_n_wf : DotDims.WF S8000x64 S64x64 S8000x64 [1] [0] [0] [1] [] []
  gather_S200000x64_S200000x1_S200000x64_1_0_n_n_0_1_164_wf : GatherDims.WF S200000x64 S200000x1 S200000x64 [1] [0] [] [0] [] 1 ![1, 64]
  scatter_S200000x64_S200000x1_S200000x64_1_0_0_1_wf : ScatterDims.WF S200000x64 S200000x1 S200000x64 [1] [0] [0] 1
  scatter_S2048x64_S200000x1_S200000x64_1_0_0_1_wf : ScatterDims.WF S2048x64 S200000x1 S200000x64 [1] [0] [0] 1
  scatter_S2048_S200000x1_S200000_n_0_0_1_wf : ScatterDims.WF S2048 S200000x1 S200000 [] [0] [0] 1
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S200000x128.size a
  hwx0_0 : ∀ i : grid0.Coords, EltTy.bits .f32 = 32 ∨ (Rect.block (s := S200000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S200000x128.size a
  hwx0_1 : ∀ i : grid0.Coords, EltTy.bits .f32 = 32 ∨ (Rect.block (s := S200000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S200000x64.size a
  hwx0_6 : ∀ i : grid0.Coords, EltTy.bits .f32 = 32 ∨ (Rect.block (s := S200000x64) S8000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S200000x64.size a
  hwx1_0 : ∀ i : grid1.Coords, EltTy.bits .f32 = 32 ∨ (Rect.block (s := S200000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S200000x64.size a
  hwx1_1 : ∀ i : grid1.Coords, EltTy.bits .f32 = 32 ∨ (Rect.block (s := S200000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S200000x64.size a
  hwx1_6 : ∀ i : grid1.Coords, EltTy.bits .f32 = 32 ∨ (Rect.block (s := S200000x64) S8000x64.size (cc1_transform_6 i) (hinb1_6 i)).WholeWords (EltTy.packing .f32)

variable [Facts₀]

def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def scatter_S200000x64_S200000x1_S200000x64_1_0_0_1 : ScatterDims S200000x64 S200000x1 S200000x64 where
  updateWindowDims := [1]
  insertedWindowDims := [0]
  scatterDimsToOperandDims := [0]
  indexVectorDim := 1
  wf := scatter_S200000x64_S200000x1_S200000x64_1_0_0_1_wf
def scatter_S2048x64_S200000x1_S200000x64_1_0_0_1 : ScatterDims S2048x64 S200000x1 S200000x64 where
  updateWindowDims := [1]
  insertedWindowDims := [0]
  scatterDimsToOperandDims := [0]
  indexVectorDim := 1
  wf := scatter_S2048x64_S200000x1_S200000x64_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_arg0) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S200000x128 : Shape := ⟨2, ![200000, 128]⟩
abbrev S2x200000 : Shape := ⟨2, ![2, 200000]⟩
abbrev S200000 : Shape := ⟨1, ![200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x200000 : Shape := ⟨2, ![1, 200000]⟩
abbrev S_ : Shape := ⟨0, ![]⟩
abbrev S200000x1 : Shape := ⟨2, ![200000, 1]⟩
abbrev S200000x64 : Shape := ⟨2, ![200000, 64]⟩
abbrev S1x64 : Shape := ⟨2, ![1, 64]⟩
abbrev S2048x64 : Shape := ⟨2, ![2048, 64]⟩
abbrev S2048 : Shape := ⟨1, ![2048]⟩
abbrev S2048x1 : Shape := ⟨2, ![2048, 1]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S2x200000, .i32⟩
  | .hbm, ⟨2, _⟩ => ⟨S200000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x200000, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S1x200000, .i32⟩
  | .hbm, ⟨25, _⟩ => ⟨S200000, .i32⟩
  | .hbm, ⟨26, _⟩ => ⟨S_, .f32⟩
  | .hbm, ⟨27, _⟩ => ⟨S200000x128, .f32⟩
  | .hbm, ⟨28, _⟩ => ⟨S200000x1, .i32⟩
  | .hbm, ⟨29, _⟩ => ⟨S200000x128, .f32⟩
  | .hbm, ⟨30, _⟩ => ⟨S200000x128, .f32⟩
  | .hbm, ⟨31, _⟩ => ⟨S200000x64, .f32⟩
  | .hbm, ⟨32, _⟩ => ⟨S1x64, .f32⟩
  | .hbm, ⟨33, _⟩ => ⟨S200000x64, .f32⟩
  | .hbm, ⟨34, _⟩ => ⟨S200000x64, .f32⟩
  | .hbm, ⟨35, _⟩ => ⟨S_, .f32⟩
  | .hbm, ⟨36, _⟩ => ⟨S200000x64, .f32⟩
  | .hbm, ⟨37, _⟩ => ⟨S200000x64, .f32⟩
  | .hbm, ⟨38, _⟩ => ⟨S200000x64, .f32⟩
  | .hbm, ⟨39, _⟩ => ⟨S1x64, .f32⟩
  | .hbm, ⟨40, _⟩ => ⟨S200000x64, .f32⟩
  | .hbm, ⟨41, _⟩ => ⟨S200000x64, .f32⟩
  | .hbm, ⟨42, _⟩ => ⟨S_, .f32⟩
  | .hbm, ⟨43, _⟩ => ⟨S200000x64, .f32⟩
  | .hbm, ⟨44, _⟩ => ⟨S200000x64, .f32⟩
  | .hbm, ⟨45, _⟩ => ⟨S1x200000, .i32⟩
  | .hbm, ⟨46, _⟩ => ⟨S200000, .i32⟩
  | .hbm, ⟨47, _⟩ => ⟨S_, .i32⟩
  | .hbm, ⟨48, _⟩ => ⟨S200000, .i32⟩
  | .hbm, ⟨49, _⟩ => ⟨S200000, .i1⟩
  | .hbm, ⟨50, _⟩ => ⟨S_, .i32⟩
  | .hbm, ⟨51, _⟩ => ⟨S200000, .i32⟩
  | .hbm, ⟨52, _⟩ => ⟨S200000, .i32⟩
  | .hbm, ⟨53, _⟩ => ⟨S200000, .i32⟩
  | .hbm, ⟨54, _⟩ => ⟨S200000x1, .i32⟩
  | .hbm, ⟨55, _⟩ => ⟨S200000x64, .f32⟩
  | .hbm, ⟨56, _⟩ => ⟨S1x200000, .i32⟩
  | .hbm, ⟨57, _⟩ => ⟨S200000, .i32⟩
  | .hbm, ⟨58, _⟩ => ⟨S_, .f32⟩
  | .hbm, ⟨59, _⟩ => ⟨S200000x64, .f32⟩
  | .hbm, ⟨60, _⟩ => ⟨S200000x1, .i32⟩
  | .hbm, ⟨61, _⟩ => ⟨S200000x64, .f32⟩
  | .hbm, ⟨62, _⟩ => ⟨S200000x64, .f32⟩
  | .hbm, ⟨63, _⟩ => ⟨S200000x64, .f32⟩
  | .hbm, ⟨64, _⟩ => ⟨S1x64, .f32⟩
  | .hbm, ⟨65, _⟩ => ⟨S200000x64, .f32⟩
  | .hbm, ⟨66, _⟩ => ⟨S200000x64, .f32⟩
  | .hbm, ⟨67, _⟩ => ⟨S_, .f32⟩
  | .hbm, ⟨68, _⟩ => ⟨S200000x64, .f32⟩
  | .hbm, ⟨69, _⟩ => ⟨S200000x64, .f32⟩
  | .hbm, ⟨70, _⟩ => ⟨S200000x64, .f32⟩
  | .hbm, ⟨71, _⟩ => ⟨S1x64, .f32⟩
  | .hbm, ⟨72, _⟩ => ⟨S200000x64, .f32⟩
  | .hbm, ⟨73, _⟩ => ⟨S200000x64, .f32⟩
  | .hbm, ⟨74, _⟩ => ⟨S_, .f32⟩
  | .hbm, ⟨75, _⟩ => ⟨S200000x64, .f32⟩
  | .hbm, ⟨76, _⟩ => ⟨S200000x64, .f32⟩
  | .hbm, ⟨77, _⟩ => ⟨S_, .f32⟩
  | .hbm, ⟨78, _⟩ => ⟨S2048x64, .f32⟩
  | .hbm, ⟨79, _⟩ => ⟨S200000x1, .i32⟩
  | .hbm, ⟨80, _⟩ => ⟨S2048x64, .f32⟩
  | .hbm, ⟨81, _⟩ => ⟨S_, .f32⟩
  | .hbm, ⟨82, _⟩ => ⟨S200000, .f32⟩
  | .hbm, ⟨83, _⟩ => ⟨S_, .f32⟩
  | .hbm, ⟨84, _⟩ => ⟨S2048, .f32⟩
  | .hbm, ⟨85, _⟩ => ⟨S200000x1, .i32⟩
  | .hbm, ⟨86, _⟩ => ⟨S2048, .f32⟩
  | .hbm, ⟨87, _⟩ => ⟨S_, .f32⟩
  | .hbm, ⟨88, _⟩ => ⟨S2048, .f32⟩
  | .hbm, ⟨89, _⟩ => ⟨S2048, .f32⟩
  | .hbm, ⟨90, _⟩ => ⟨S2048x1, .f32⟩
  | .hbm, ⟨91, _⟩ => ⟨S2048x64, .f32⟩
  | .hbm, ⟨92, _⟩ => ⟨S2048x64, .f32⟩
  | .hbm, ⟨93, _⟩ => ⟨S2048x1, .f32⟩
  | .hbm, ⟨94, _⟩ => ⟨S1x1, .f32⟩
  | .hbm, ⟨95, _⟩ => ⟨S2048x1, .f32⟩
  | .hbm, ⟨96, _⟩ => ⟨S2048x1, .f32⟩
  | .hbm, ⟨97, _⟩ => ⟨S2048, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S_S200000x128 : S_.BroadcastsInDim S200000x128 (![] : Fin 0 → Fin S200000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S_S2048x64 : S_.BroadcastsInDim S2048x64 (![] : Fin 0 → Fin S2048x64.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x64_0_1 : S2048x1.BroadcastsInDim S2048x64 (![0, 1] : Fin 2 → Fin S2048x64.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  shapeCasts_S2048x1_S2048 : S2048x1.ShapeCasts S2048
  gather_S200000x128_S200000x1_S200000x128_1_0_n_n_0_1_1128_wf : GatherDims.WF S200000x128 S200000x1 S200000x128 [1] [0] [] [0] [] 1 ![1, 128]
  scatter_S200000x128_S200000x1_S200000x128_1_0_0_1_wf : ScatterDims.WF S200000x128 S200000x1 S200000x128 [1] [0] [0] 1
  dot_S200000x128_S128x64_S200000x64_1_0_0_1_n_n_wf : DotDims.WF S200000x128 S128x64 S200000x64 [1] [0] [0] [1] [] []
  dot_S200000x64_S64x64_S200000x64_1_0_0_1_n_n_wf : DotDims.WF S200000x64 S64x64 S200000x64 [1] [0] [0] [1] [] []
  gather_S200000x64_S200000x1_S200000x64_1_0_n_n_0_1_164_wf : GatherDims.WF S200000x64 S200000x1 S200000x64 [1] [0] [] [0] [] 1 ![1, 64]
  scatter_S200000x64_S200000x1_S200000x64_1_0_0_1_wf : ScatterDims.WF S200000x64 S200000x1 S200000x64 [1] [0] [0] 1
  scatter_S2048x64_S200000x1_S200000x64_1_0_0_1_wf : ScatterDims.WF S2048x64 S200000x1 S200000x64 [1] [0] [0] 1
  scatter_S2048_S200000x1_S200000_n_0_0_1_wf : ScatterDims.WF S2048 S200000x1 S200000 [] [0] [0] 1
  dot_S2048x64_S64x1_S2048x1_1_0_0_1_n_n_wf : DotDims.WF S2048x64 S64x1 S2048x1 [1] [0] [0] [1] [] []

variable [Facts₀]

def gather_S200000x128_S200000x1_S200000x128_1_0_n_n_0_1_1128 : GatherDims S200000x128 S200000x1 S200000x128 where
  offsetDims := [1]
  collapsedSliceDims := [0]
  operandBatchingDims := []
  startIndicesBatchingDims := []
  startIndexMap := [0]
  indexVectorDim := 1
  sliceSizes := ![1, 128]
  wf := gather_S200000x128_S200000x1_S200000x128_1_0_n_n_0_1_1128_wf
def scatter_S200000x128_S200000x1_S200000x128_1_0_0_1 : ScatterDims S200000x128 S200000x1 S200000x128 where
  updateWindowDims := [1]
  insertedWindowDims := [0]
  scatterDimsToOperandDims := [0]
  indexVectorDim := 1
  wf := scatter_S200000x128_S200000x1_S200000x128_1_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S200000x1_S200000x64_1_0_n_n_0_1_164 : GatherDims S200000x64 S200000x1 S200000x64 where
  offsetDims := [1]
  collapsedSliceDims := [0]
  operandBatchingDims := []
  startIndicesBatchingDims := []
  startIndexMap := [0]
  indexVectorDim := 1
  sliceSizes := ![1, 64]
  wf := gather_S200000x64_S200000x1_S200000x64_1_0_n_n_0_1_164_wf
def scatter_S200000x64_S200000x1_S200000x64_1_0_0_1 : ScatterDims S200000x64 S200000x1 S200000x64 where
  updateWindowDims := [1]
  insertedWindowDims := [0]
  scatterDimsToOperandDims := [0]
  indexVectorDim := 1
  wf := scatter_S200000x64_S200000x1_S200000x64_1_0_0_1_wf
def scatter_S2048x64_S200000x1_S200000x64_1_0_0_1 : ScatterDims S2048x64 S200000x1 S200000x64 where
  updateWindowDims := [1]
  insertedWindowDims := [0]
  scatterDimsToOperandDims := [0]
  indexVectorDim := 1
  wf := scatter_S2048x64_S200000x1_S200000x64_1_0_0_1_wf
def scatter_S2048_S200000x1_S200000_n_0_0_1 : ScatterDims S2048 S200000x1 S200000 where
  updateWindowDims := []
  insertedWindowDims := [0]
  scatterDimsToOperandDims := [0]
  indexVectorDim := 1
  wf := scatter_S2048_S200000x1_S200000_n_0_0_1_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

class Facts : Prop extends Facts₀ where

variable [Facts]
-- ==== Proof.KernelRun.lean ====
/-
  The kernel program's run, with its result named.

  From any launch memory with every counter at zero, every weakly fair execution of the program on the TensorCores
  terminates, nothing faulting, and in every final state each unscoped buffer holds the last boundary's contents: the
  fold of the launch memory through the program's host stretches and its two kernel regions.  So any property of final
  memories that follows from those contents holds of every final state (the first theorem); in particular the result
  buffer holds the last boundary's contents at the result, and each of the thirteen argument arrays holds what it held
  at launch, since no host operation and no region writes an argument (the second theorem).
-/
import proofs.«116676_j64209761075688_1_alg».proof.Proof.Gen.KernelIdeal.Frame

set_option maxRecDepth 16384

noncomputable section

namespace Cert.Gin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every final state satisfies whatever follows from
    "each unscoped buffer of each core holds the last boundary's contents". -/
theorem kernel_run_boundary {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- Every weakly fair execution of the program terminates with the result buffer at the last boundary's contents
    and the thirteen argument arrays as launched. -/
theorem kernel_run : θ_run defs (onTc (τ := τ) (main (F := F))) ⟨m, fun _ => 0, ρ⟩ (fun r => ∀ c : Dev nD,
      r.2.mem ((c.tc : Thread nD τ).loc main_v50) = W5 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  kernel_run_boundary m ρ (fun s h c =>
    ⟨h c _ (mem_uc main_v50 (by decide)),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c)⟩)

end Cert.Gin

end
-- ==== Proof.Spec.lean ====
/-
  The graph network this certificate is about, written once on the extended reals.

  One message-passing layer takes node features `x : [n, K]` and the neighbour sums `agg : [n, K]` and returns, at
  node r and channel j,
      max( ∑ k₂, max( ∑ k₁, (x (r,k₁) + agg (r,k₁)) · Wa (k₁,k₂) + ba k₂, 0 ) · Wb (k₂,j) + bb j, 0 ):
  two dense maps with a bias each, a rectifier after each.  Every entry reads ONE row of `x` and of `agg`, which is
  what lets a row-tiled evaluation agree with the whole-array one.  The neighbour sums (a row gather along the edges'
  sources followed by an accumulating scatter to their targets) and the readout (segment sums per graph, divided by the
  clamped segment sizes, then a linear head) are carried as whole-array functions and never opened: both programs
  apply the very same ones.
-/
import proofs.«116676_j64209761075688_1_alg».proof.Proof.Gen.ReferenceIdeal
import Idealize.ShloMosaic.PureOps.Ideal
import Idealize.ShloMosaic.Lib.ValueIdx

noncomputable section

namespace Cert.Gin

open Idealize.ShloMosaic Idealize.ShloMosaic.ValueIdx Cert.ReferenceIdeal Cert.ReferenceIdeal.Facts₀ Cert.ReferenceIdeal.Facts

/-- The zero word's value (it is the real 0; nothing below needs to know). -/
abbrev zeroW : EReal := Ideal.ofBits .f32 0x00000000#32

/-- The inner dense map with its bias and rectifier, at node `j 0` and hidden channel `j 1`. -/
def hidden {n K d : ℕ} (x agg : (⟨2, ![n, K]⟩ : Shape).Idx → EReal) (wa : (⟨2, ![K, d]⟩ : Shape).Idx → EReal)
    (ba : (⟨1, ![d]⟩ : Shape).Idx → EReal) : (⟨2, ![n, d]⟩ : Shape).Idx → EReal :=
  fun j => max ((∑ k : Fin K, (x (ix2 (j 0) k) + agg (ix2 (j 0) k)) * wa (ix2 k (j 1))) + ba (ix1 (j 1))) zeroW

/-- One layer: the outer dense map, bias and rectifier over the hidden activations. -/
def layer {n K d : ℕ} (x agg : (⟨2, ![n, K]⟩ : Shape).Idx → EReal) (wa : (⟨2, ![K, d]⟩ : Shape).Idx → EReal)
    (ba : (⟨1, ![d]⟩ : Shape).Idx → EReal) (wb : (⟨2, ![d, d]⟩ : Shape).Idx → EReal) (bb : (⟨1, ![d]⟩ : Shape).Idx → EReal) :
    (⟨2, ![n, d]⟩ : Shape).Idx → EReal :=
  fun i => max ((∑ k : Fin d, hidden x agg wa ba (ix2 (i 0) k) * wb (ix2 k (i 1))) + bb (ix1 (i 1))) zeroW

/-- An entry of a layer reads one row of the features and of the neighbour sums: two pairs of arrays that agree on
    that row (the second pair possibly a row tile of the first) give the same entry under the same weights. -/
theorem layer_congr {n n' K d : ℕ} (x agg : (⟨2, ![n, K]⟩ : Shape).Idx → EReal) (x' agg' : (⟨2, ![n', K]⟩ : Shape).Idx → EReal)
    (wa : (⟨2, ![K, d]⟩ : Shape).Idx → EReal) (ba : (⟨1, ![d]⟩ : Shape).Idx → EReal)
    (wb : (⟨2, ![d, d]⟩ : Shape).Idx → EReal) (bb : (⟨1, ![d]⟩ : Shape).Idx → EReal)
    (r : Fin n) (r' : Fin n') (j : Fin d)
    (hx : ∀ k : Fin K, x (ix2 r k) = x' (ix2 r' k)) (hagg : ∀ k : Fin K, agg (ix2 r k) = agg' (ix2 r' k)) :
    layer x agg wa ba wb bb (ix2 r j) = layer x' agg' wa ba wb bb (ix2 r' j) := by
  show max ((∑ k : Fin d, max ((∑ k' : Fin K, (x (ix2 r k') + agg (ix2 r k')) * wa (ix2 k' k)) + ba (ix1 k)) zeroW * wb (ix2 k j)) + bb (ix1 j)) zeroW
    = max ((∑ k : Fin d, max ((∑ k' : Fin K, (x' (ix2 r' k') + agg' (ix2 r' k')) * wa (ix2 k' k)) + ba (ix1 k)) zeroW * wb (ix2 k j)) + bb (ix1 j)) zeroW
  simp only [hx, hagg]

/-! ## The parts both programs share, as whole-array functions -/

/-- An `i32` array of the given shape. -/
abbrev IArr (S : Shape) := (⟨S, .i32⟩ : BufTy).Contents (Elt Ideal)
/-- An `f32` array of the given shape, at the exact values. -/
abbrev FArr (S : Shape) := (⟨S, .f32⟩ : BufTy).Contents (Elt Ideal)

/-- The edges' source nodes as a column of row numbers (a negative number wrapped once, as array indexing does). -/
def srcRows (e : IArr S2x200000) : IArr S200000x1 :=
  broadcastInDim S200000x1 ![0] bcast_S200000_S200000x1_0
    (select (cmpi .slt (shapeCast _ (extractStridedSlice S1x200000 ![0, 0] e slices_S2x200000_S1x200000_0_0) shapeCasts_S1x200000_S200000)
        (broadcastInDim S200000 ![] bcast_S_S200000 (constantI S_ 32 0#32)))
      (addi (shapeCast _ (extractStridedSlice S1x200000 ![0, 0] e slices_S2x200000_S1x200000_0_0) shapeCasts_S1x200000_S200000)
        (broadcastInDim S200000 ![] bcast_S_S200000 (constantI S_ 32 200000#32)))
      (shapeCast _ (extractStridedSlice S1x200000 ![0, 0] e slices_S2x200000_S1x200000_0_0) shapeCasts_S1x200000_S200000))

/-- The edges' target nodes as a column of row numbers. -/
def dstRows (e : IArr S2x200000) : IArr S200000x1 :=
  broadcastInDim S200000x1 ![0] bcast_S200000_S200000x1_0
    (shapeCast _ (extractStridedSlice S1x200000 ![1, 0] e slices_S2x200000_S1x200000_1_0) shapeCasts_S1x200000_S200000)

/-- Neighbour sums of 128-channel features: each edge's source row added into its target row. -/
def agg128 (x : FArr S200000x128) (e : IArr S2x200000) : FArr S200000x128 :=
  Host.scatterAdd (F := Ideal) scatter_S200000x128_S200000x1_S200000x128_1_0_0_1
    (broadcastInDim S200000x128 ![] bcast_S_S200000x128 (constant (F := Ideal) S_ .f32 0x00000000#32)) (dstRows e)
    (Host.gather gather_S200000x128_S200000x1_S200000x128_1_0_n_n_0_1_1128 x (srcRows e))

/-- Neighbour sums of 64-channel features. -/
def agg64 (h : FArr S200000x64) (e : IArr S2x200000) : FArr S200000x64 :=
  Host.scatterAdd (F := Ideal) scatter_S200000x64_S200000x1_S200000x64_1_0_0_1
    (broadcastInDim S200000x64 ![] bcast_S_S200000x64 (constant (F := Ideal) S_ .f32 0x00000000#32)) (dstRows e)
    (Host.gather gather_S200000x64_S200000x1_S200000x64_1_0_n_n_0_1_164 h (srcRows e))

/-- The readout: per-graph sums of the node features divided by the graph's node count (at least one), then the
    linear head and its bias. -/
def readout (h : FArr S200000x64) (batch : IArr S200000) (fcW : FArr S64x1) (fcb : FArr S1) : FArr S2048 :=
  shapeCast _ (addf
    (Host.dotGeneral (F := Ideal) (φ₁ := .f32) (φ₂ := .f32) dot_S2048x64_S64x1_S2048x1_1_0_0_1_n_n none
      (Host.divf (F := Ideal)
        (Host.scatterAdd (F := Ideal) scatter_S2048x64_S200000x1_S200000x64_1_0_0_1
          (broadcastInDim S2048x64 ![] bcast_S_S2048x64 (constant (F := Ideal) S_ .f32 0x00000000#32))
          (broadcastInDim S200000x1 ![0] bcast_S200000_S200000x1_0 batch) h)
        (broadcastInDim S2048x64 ![0, 1] bcast_S2048x1_S2048x64_0_1 (broadcastInDim S2048x1 ![0] bcast_S2048_S2048x1_0
          (maximumf
            (Host.scatterAdd (F := Ideal) scatter_S2048_S200000x1_S200000_n_0_0_1
              (broadcastInDim S2048 ![] bcast_S_S2048 (constant (F := Ideal) S_ .f32 0x00000000#32))
              (broadcastInDim S200000x1 ![0] bcast_S200000_S200000x1_0 batch)
              (broadcastInDim S200000 ![] bcast_S_S200000 (constant (F := Ideal) S_ .f32 0x3F800000#32)))
            (broadcastInDim S2048 ![] bcast_S_S2048 (constant (F := Ideal) S_ .f32 0x3F800000#32))))))
      fcW)
    (broadcastInDim S2048x1 ![0, 1] bcast_S1x1_S2048x1_0_1 (broadcastInDim S1x1 ![1] bcast_S1_S1x1_1 fcb)))
    shapeCasts_S2048x1_S2048

/-- The whole network of the thirteen arguments. -/
def network (x : FArr S200000x128) (e : IArr S2x200000) (batch : IArr S200000)
    (w1a : FArr S128x64) (b1a : FArr S64) (w1b : FArr S64x64) (b1b : FArr S64)
    (w2a : FArr S64x64) (b2a : FArr S64) (w2b : FArr S64x64) (b2b : FArr S64)
    (fcW : FArr S64x1) (fcb : FArr S1) : FArr S2048 :=
  readout
    (layer (n := 200000) (K := 64) (d := 64) (layer (n := 200000) (K := 128) (d := 64) x (agg128 x e) w1a b1a w1b b1b)
      (agg64 (layer (n := 200000) (K := 128) (d := 64) x (agg128 x e) w1a b1a w1b b1b) e) w2a b2a w2b b2b)
    batch fcW fcb

end Cert.Gin

end
-- ==== Proof.LibMatmulPlain.lean ====
/-
  A rows-by-columns matrix product into a zero accumulator, read at an index on the extended reals.

  For `A : [M, K]` and `B : [K, N]` contracted on `A`'s last and `B`'s first axis, the product accumulated into the
  zero splat is, at `(i, j)`, the finite sum `∑ k, A (i, k) * B (k, j)`: no rounding and no chunk order is left at the
  exact values, and the contraction index with its one axis is the coordinate `k`.
-/
import Idealize.ShloMosaic.PureOps.Ideal
import Idealize.ShloMosaic.PureOps.Ideal.Laws
import Idealize.ShloMosaic.Lib.ValueIdx

noncomputable section

namespace Cert.LibMatmulPlain

open Idealize.ShloMosaic Idealize.ShloMosaic.ValueIdx

/-- The plain product `[M, K] × [K, N]` into the zero accumulator at `(i, j)` is `∑ k, A (i, k) * B (k, j)`. -/
theorem matmul_zero_apply {M K N : ℕ} {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ k : Fin K, A (ix2 i k) * B (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.LibMatmulPlain

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.LibDenseRelu.lean ====
/-
  A dense map with a bias row and a rectifier, as a vector unit spells it, read at an entry on the extended reals.

  For `a : [n, K]`, `w : [K, d]` and a bias row `b : [1, d]`, the product accumulated into the zero splat, plus the row
  broadcast down the n rows, rectified against the splat of the zero word, is at (r, j)
      max( ∑ k, a (r, k) · w (k, j) + b (0, j), 0 ).
  The operands may be in any float format (a change of format is the identity at the exact values); nothing here
  needs finiteness, and the extents are arbitrary.
-/
import Idealize.ShloMosaic.PureOps.Ideal
import Idealize.ShloMosaic.PureOps.Ideal.Laws
import Idealize.ShloMosaic.Lib.ValueIdx
import Idealize.ShloMosaic.Lib.Pipeline.Value
import proofs.«116676_j64209761075688_1_alg».proof.Proof.LibMatmulPlain
import proofs.«116676_j64209761075688_1_alg».proof.Proof.LibBiasRows

noncomputable section

namespace Cert.LibDenseRelu

open Idealize.ShloMosaic Idealize.ShloMosaic.ValueIdx

/-- The affine part: product into the zero accumulator plus the broadcast bias row (the row cast to its own shape
    first, as the vector unit prints it), at (r, j). -/
theorem vec_dense {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    addf (FloatOps.matmul (DotDims.plain n K d) prec a w (constant ⟨2, ![n, d]⟩ .f32 0x00000000#32))
        (broadcastTo ⟨2, ![n, d]⟩ (shapeCast ⟨2, ![1, d]⟩ b h1) h2) (ix2 r j)
      = (∑ k : Fin K, a (ix2 r k) * w (ix2 k j)) + b (ix2 ⟨0, Nat.one_pos⟩ j) := by
  show FloatOps.matmul (DotDims.plain n K d) prec a w (constant ⟨2, ![n, d]⟩ .f32 0x00000000#32) (ix2 r j)
      + broadcastTo ⟨2, ![n, d]⟩ (shapeCast ⟨2, ![1, d]⟩ b h1) h2 (ix2 r j) = _
  rw [Cert.LibMatmulPlain.matmul_zero_apply, shapeCast_self, Cert.LibBiasRows.row_broadcast]
  rfl

/-- The rectified layer at (r, j). -/
theorem vec_dense_relu {n K d : ℕ} {φ₁ φ₂ : FTy} (prec : Option ContractPrecision)
    (a : FVec Ideal ⟨2, ![n, K]⟩ φ₁) (w : FVec Ideal ⟨2, ![K, d]⟩ φ₂) (b : FVec Ideal ⟨2, ![1, d]⟩ .f32)
    (h1 : (⟨2, ![1, d]⟩ : Shape).ShapeCasts ⟨2, ![1, d]⟩) (h2 : (⟨2, ![1, d]⟩ : Shape).Broadcasts ⟨2, ![n, d]⟩)
    (r : Fin n) (j : Fin d) :
    maximumf (addf (FloatOps.matmul (DotDims.plain n K d) prec a w (constant ⟨2, ![n, d]⟩ .f32 0x00000000#32))
        (broadcastTo ⟨2, ![n, d]⟩ (shapeCast ⟨2, ![1, d]⟩ b h1) h2))
        (broadcast ⟨2, ![n, d]⟩ (FloatOps.ofBits (F := Ideal) .f32 0x00000000#32)) (ix2 r j)
      = max ((∑ k : Fin K, a (ix2 r k) * w (ix2 k j)) + b (ix2 ⟨0, Nat.one_pos⟩ j)) (Ideal.ofBits .f32 0x00000000#32) := by
  show max (addf (FloatOps.matmul (DotDims.plain n K d) prec a w (constant ⟨2, ![n, d]⟩ .f32 0x00000000#32))
        (broadcastTo ⟨2, ![n, d]⟩ (shapeCast ⟨2, ![1, d]⟩ b h1) h2) (ix2 r j)) _ = _
  rw [vec_dense]
  rfl

end Cert.LibDenseRelu

end
-- ==== Proof.KernelPayload.lean ====
/-
  What one grid step of each of the two kernels stores, read at an entry.

  A step holds a tile of 8000 node rows of the features and of the neighbour sums, and the whole of both weight
  matrices and bias rows.  It adds the two tiles, multiplies by the first weights, adds the first bias row, rectifies,
  multiplies by the second weights, adds the second bias row and rectifies again.  The changes of float format on the
  way into the products are the identity at the exact values, so at (r, j) the stored tile is exactly one layer of the
  network evaluated on the tile: a function of row r of the two tiles alone.
-/
import proofs.«116676_j64209761075688_1_alg».proof.Proof.Gen.KernelIdeal.Skeleton
import proofs.«116676_j64209761075688_1_alg».proof.Proof.Spec
import proofs.«116676_j64209761075688_1_alg».proof.Proof.LibDenseRelu

noncomputable section

namespace Cert.Gin

open Idealize.ShloMosaic Idealize.ShloMosaic.ValueIdx Cert.KernelIdeal Cert.KernelIdeal.Gen

/-- A bias held as a row `[1, d]`, read as the vector of its entries. -/
def rowVec {d : ℕ} (b : (⟨2, ![1, d]⟩ : Shape).Idx → EReal) : (⟨1, ![d]⟩ : Shape).Idx → EReal :=
  fun q => b (ix2 ⟨0, Nat.one_pos⟩ (q 0))

/-- The first kernel's stored tile (128 input channels) is the layer of its loaded tiles. -/
theorem pay0_apply (v0 v1 : Vec Ideal S8000x128 .f32) (v5 : Vec Ideal S128x64 .f32) (v8 : Vec Ideal S1x64 .f32)
    (v15 : Vec Ideal S64x64 .f32) (v18 : Vec Ideal S1x64 .f32) (r : Fin 8000) (j : Fin 64) :
    k0_pay1 (F := Ideal) v0 v1 v5 v8 v15 v18 (ix2 r j)
      = layer (n := 8000) (K := 128) (d := 64) v0 v1 v5 (rowVec v8) v15 (rowVec v18) (ix2 r j) := by
  unfold k0_pay1
  refine (Cert.LibDenseRelu.vec_dense_relu (n := 8000) (K := 64) (d := 64) none _ _ v18 _ _ r j).trans ?_
  show max ((∑ k : Fin 64, _ * v15 (ix2 k j)) + v18 (ix2 ⟨0, Nat.one_pos⟩ j)) zeroW
    = max ((∑ k : Fin 64, hidden (n := 8000) (K := 128) (d := 64) v0 v1 v5 (rowVec v8) (ix2 r k) * v15 (ix2 k j)) + v18 (ix2 ⟨0, Nat.one_pos⟩ j)) zeroW
  refine congrArg (fun s => max (s + v18 (ix2 ⟨0, Nat.one_pos⟩ j)) zeroW) (Finset.sum_congr rfl fun k _ => congrArg (· * v15 (ix2 k j)) ?_)
  refine (Cert.LibDenseRelu.vec_dense_relu (n := 8000) (K := 128) (d := 64) none _ _ v8 _ _ r k).trans ?_
  show max ((∑ k' : Fin 128, (v0 (ix2 r k') + shapeCast S8000x128 v1 shapeCasts_S8000x128_S8000x128 (ix2 r k')) * v5 (ix2 k' k)) + v8 (ix2 ⟨0, Nat.one_pos⟩ k)) zeroW
    = max ((∑ k' : Fin 128, (v0 (ix2 r k') + v1 (ix2 r k')) * v5 (ix2 k' k)) + v8 (ix2 ⟨0, Nat.one_pos⟩ k)) zeroW
  rw [shapeCast_self]

/-- The second kernel's stored tile (64 input channels) is the layer of its loaded tiles. -/
theorem pay1_apply (v0 v2 : Vec Ideal S8000x64 .f32) (v6 : Vec Ideal S64x64 .f32) (v9 : Vec Ideal S1x64 .f32)
    (v16 : Vec Ideal S64x64 .f32) (v19 : Vec Ideal S1x64 .f32) (r : Fin 8000) (j : Fin 64) :
    k1_pay1 (F := Ideal) v0 v2 v6 v9 v16 v19 (ix2 r j)
      = layer (n := 8000) (K := 64) (d := 64) v0 v2 v6 (rowVec v9) v16 (rowVec v19) (ix2 r j) := by
  unfold k1_pay1
  refine (Cert.LibDenseRelu.vec_dense_relu (n := 8000) (K := 64) (d := 64) none _ _ v19 _ _ r j).trans ?_
  show max ((∑ k : Fin 64, _ * v16 (ix2 k j)) + v19 (ix2 ⟨0, Nat.one_pos⟩ j)) zeroW
    = max ((∑ k : Fin 64, hidden (n := 8000) (K := 64) (d := 64) v0 v2 v6 (rowVec v9) (ix2 r k) * v16 (ix2 k j)) + v19 (ix2 ⟨0, Nat.one_pos⟩ j)) zeroW
  refine congrArg (fun s => max (s + v19 (ix2 ⟨0, Nat.one_pos⟩ j)) zeroW) (Finset.sum_congr rfl fun k _ => congrArg (· * v16 (ix2 k j)) ?_)
  refine (Cert.LibDenseRelu.vec_dense_relu (n := 8000) (K := 64) (d := 64) none _ _ v9 _ _ r k).trans ?_
  show max ((∑ k' : Fin 64, (shapeCast S8000x64 v0 shapeCasts_S8000x64_S8000x64 (ix2 r k') + shapeCast S8000x64 v2 shapeCasts_S8000x64_S8000x64 (ix2 r k')) * v6 (ix2 k' k)) + v9 (ix2 ⟨0, Nat.one_pos⟩ k)) zeroW
    = max ((∑ k' : Fin 64, (v0 (ix2 r k') + v2 (ix2 r k')) * v6 (ix2 k' k)) + v9 (ix2 ⟨0, Nat.one_pos⟩ k)) zeroW
  rw [shapeCast_self, shapeCast_self]

end Cert.Gin

end
-- ==== Proof.KernelFinal.lean ====
/-
  What each of the two regions leaves in its output array: one layer of the network on the arrays the region finds.

  A region walks 25 row tiles of 8000 nodes.  At tile t the feature and neighbour-sum windows hold rows
  8000·t … 8000·t + 7999 of their arrays, the weight and bias windows the whole of theirs, and the step writes back
  rows 8000·t … of the result.  A layer's entry reads one row of the features and of the neighbour sums, so the tile
  written at t IS the whole-array layer read through rows 8000·t …; the 25 tiles cover the 200000 rows, hence the
  array ends holding the layer.  The contents the region finds are a parameter here.
-/
import proofs.«116676_j64209761075688_1_alg».proof.Proof.Gen.KernelIdeal.Frame
import proofs.«116676_j64209761075688_1_alg».proof.Proof.KernelPayload
import Idealize.ShloMosaic.Lib.Pipeline.Value

set_option maxRecDepth 16384

noncomputable section

namespace Cert.Gin

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-! ## A tile of a layer is the layer of the tiles -/

/-- Row r of tile p of the first region: the stored payload is the whole-array layer at row 8000·p + r, once the
    loaded tiles are rows 8000·p … of the arrays and the loaded weights and biases are the arrays themselves. -/
theorem tile0 (X AGG : S200000x128.Idx → EReal) (WA : S128x64.Idx → EReal) (BA : S1x64.Idx → EReal) (WB : S64x64.Idx → EReal) (BB : S1x64.Idx → EReal)
    (x0 x1 : Vec Ideal S8000x128 .f32) (x2 : Vec Ideal S128x64 .f32) (x3 : Vec Ideal S1x64 .f32) (x4 : Vec Ideal S64x64 .f32) (x5 : Vec Ideal S1x64 .f32)
    (r : Fin 8000) (j : Fin 64) (R : Fin 200000)
    (h0 : ∀ k : Fin 128, x0 (ix2 r k) = X (ix2 R k)) (h1 : ∀ k : Fin 128, x1 (ix2 r k) = AGG (ix2 R k))
    (h2 : x2 = WA) (h3 : x3 = BA) (h4 : x4 = WB) (h5 : x5 = BB) :
    k0_pay1 (F := Ideal) x0 x1 x2 x3 x4 x5 (ix2 r j)
      = layer (n := 200000) (K := 128) (d := 64) X AGG WA (rowVec BA) WB (rowVec BB) (ix2 R j) := by
  subst h2 h3 h4 h5
  rw [pay0_apply]
  exact layer_congr (n := 8000) (n' := 200000) x0 x1 X AGG x2 (rowVec x3) x4 (rowVec x5) r R j h0 h1

/-- The same for the second region (64 input channels). -/
theorem tile1 (X AGG : S200000x64.Idx → EReal) (WA : S64x64.Idx → EReal) (BA : S1x64.Idx → EReal) (WB : S64x64.Idx → EReal) (BB : S1x64.Idx → EReal)
    (x0 x1 : Vec Ideal S8000x64 .f32) (x2 : Vec Ideal S64x64 .f32) (x3 : Vec Ideal S1x64 .f32) (x4 : Vec Ideal S64x64 .f32) (x5 : Vec Ideal S1x64 .f32)
    (r : Fin 8000) (j : Fin 64) (R : Fin 200000)
    (h0 : ∀ k : Fin 64, x0 (ix2 r k) = X (ix2 R k)) (h1 : ∀ k : Fin 64, x1 (ix2 r k) = AGG (ix2 R k))
    (h2 : x2 = WA) (h3 : x3 = BA) (h4 : x4 = WB) (h5 : x5 = BB) :
    k1_pay1 (F := Ideal) x0 x1 x2 x3 x4 x5 (ix2 r j)
      = layer (n := 200000) (K := 64) (d := 64) X AGG WA (rowVec BA) WB (rowVec BB) (ix2 R j) := by
  subst h2 h3 h4 h5
  rw [pay1_apply]
  exact layer_congr (n := 8000) (n' := 200000) x0 x1 X AGG x2 (rowVec x3) x4 (rowVec x5) r R j h0 h1

/-! ## Region 0 -/

/-- The layer of the arrays region 0 finds. -/
def L0 (c : Dev nD) : S200000x64.Idx → EReal :=
  layer (n := 200000) (K := 128) (d := 64) (V c main_arg0) (V c main_v13) (V c main_arg3) (rowVec (V c main_v14)) (V c main_arg5) (rowVec (V c main_v15))

/-- The printed index maps over the grid: the row-tiled windows sit at block (t, 0), the others at block (0, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point t writes back is tile t of the layer. -/
theorem flushed0_eq (c : Dev nD) (t : Fin cfg0.N) :
    (dat0 V c).flushed 6 t = ((cfg0.win 6).blk t).view.read (Elt Ideal) (L0 V c) := by
  show (cfg0.win 6).cut (grid0.coords t) ((dat0 V c).after 6 t) = _
  rw [after0_6]
  unfold out0_6
  rw [View.canon_unit_zero zero_offsets]
  simp only [View.ld_unit_zero (S := S8000x128) zero_offsets, View.ld_unit_zero (S := S128x64) zero_offsets,
    View.ld_unit_zero (S := S1x64) zero_offsets, View.ld_unit_zero (S := S64x64) zero_offsets]
  obtain ⟨e00, e01, e10, e11, e20, e21, e30, e31, e40, e41, e50, e51, e60, e61⟩ := idx_facts0 t
  have ht : t.val < 25 := by have h := t.isLt; have hN : cfg0.N = 25 := N_0; omega
  funext y
  obtain ⟨r, j, rfl⟩ : ∃ (r : Fin 8000) (j : Fin 64), y = ix2 r j := ⟨y 0, y 1, eq_ix2 y⟩
  show k0_pay1 (F := Ideal) (iblk0 V c 0 t) (iblk0 V c 1 t) (iblk0 V c 2 t) (iblk0 V c 3 t) (iblk0 V c 4 t) (iblk0 V c 5 t) (ix2 r j)
    = L0 V c (((cfg0.win 6).blk t).view.emb (ix2 r j))
  have hR : t.val * 8000 + r.val < 200000 := by have := r.isLt; omega
  have hemb : ((cfg0.win 6).blk t).view.emb (ix2 r j) = ix2 (⟨t.val * 8000 + r.val, hR⟩ : Fin 200000) j := by
    funext a; apply Fin.ext
    match a with
    | ⟨0, _⟩ => show win0_6.index t (0 : Fin 2) * 8000 + 1 * r.val = t.val * 8000 + r.val; rw [e60]; omega
    | ⟨1, _⟩ => show win0_6.index t (1 : Fin 2) * 64 + 1 * j.val = j.val; rw [e61]; omega
  rw [hemb]
  unfold L0
  refine tile0 (V c main_arg0) (V c main_v13) (V c main_arg3) (V c main_v14) (V c main_arg5) (V c main_v15) _ _ _ _ _ _ r j ⟨t.val * 8000 + r.val, hR⟩
    (fun k => ?_) (fun k => ?_) (funext fun z => ?_) (funext fun z => ?_) (funext fun z => ?_) (funext fun z => ?_)
  · show V c main_arg0 (((cfg0.win 0).blk t).view.emb (ix2 r k)) = V c main_arg0 (ix2 ⟨t.val * 8000 + r.val, hR⟩ k)
    refine congrArg (V c main_arg0) (funext fun a => Fin.ext ?_)
    match a with
    | ⟨0, _⟩ => show win0_0.index t (0 : Fin 2) * 8000 + 1 * r.val = t.val * 8000 + r.val; rw [e00]; omega
    | ⟨1, _⟩ => show win0_0.index t (1 : Fin 2) * 128 + 1 * k.val = k.val; rw [e01]; omega
  · show V c main_v13 (((cfg0.win 1).blk t).view.emb (ix2 r k)) = V c main_v13 (ix2 ⟨t.val * 8000 + r.val, hR⟩ k)
    refine congrArg (V c main_v13) (funext fun a => Fin.ext ?_)
    match a with
    | ⟨0, _⟩ => show win0_1.index t (0 : Fin 2) * 8000 + 1 * r.val = t.val * 8000 + r.val; rw [e10]; omega
    | ⟨1, _⟩ => show win0_1.index t (1 : Fin 2) * 128 + 1 * k.val = k.val; rw [e11]; omega
  · show V c main_arg3 (((cfg0.win 2).blk t).view.emb z) = V c main_arg3 z
    refine congrArg (V c main_arg3) (funext fun a => Fin.ext ?_)
    match a with
    | ⟨0, _⟩ => show win0_2.index t (0 : Fin 2) * 128 + 1 * (z 0).val = (z 0).val; rw [e20]; omega
    | ⟨1, _⟩ => show win0_2.index t (1 : Fin 2) * 64 + 1 * (z 1).val = (z 1).val; rw [e21]; omega
  · show V c main_v14 (((cfg0.win 3).blk t).view.emb z) = V c main_v14 z
    refine congrArg (V c main_v14) (funext fun a => Fin.ext ?_)
    match a with
    | ⟨0, _⟩ => show win0_3.index t (0 : Fin 2) * 1 + 1 * (z 0).val = (z 0).val; rw [e30]; omega
    | ⟨1, _⟩ => show win0_3.index t (1 : Fin 2) * 64 + 1 * (z 1).val = (z 1).val; rw [e31]; omega
  · show V c main_arg5 (((cfg0.win 4).blk t).view.emb z) = V c main_arg5 z
    refine congrArg (V c main_arg5) (funext fun a => Fin.ext ?_)
    match a with
    | ⟨0, _⟩ => show win0_4.index t (0 : Fin 2) * 64 + 1 * (z 0).val = (z 0).val; rw [e40]; omega
    | ⟨1, _⟩ => show win0_4.index t (1 : Fin 2) * 64 + 1 * (z 1).val = (z 1).val; rw [e41]; omega
  · show V c main_v15 (((cfg0.win 5).blk t).view.emb z) = V c main_v15 z
    refine congrArg (V c main_v15) (funext fun a => Fin.ext ?_)
    match a with
    | ⟨0, _⟩ => show win0_5.index t (0 : Fin 2) * 1 + 1 * (z 0).val = (z 0).val; rw [e50]; omega
    | ⟨1, _⟩ => show win0_5.index t (1 : Fin 2) * 64 + 1 * (z 1).val = (z 1).val; rw [e51]; omega

/-- An index of the result array is in point t's block iff each coordinate is in the block's range on its axis. -/
theorem mem_blk0 (t : Fin cfg0.N) (i : S200000x64.Idx) :
    i ∈ ((cfg0.win 6).blk t).view.set ↔ ∀ a : Fin 2, win0_6.index t a * S8000x64.size a ≤ (i a).val ∧ (i a).val < win0_6.index t a * S8000x64.size a + S8000x64.size a := by
  show i ∈ ((View.whole main_v16).slice (win0_6.rect t)).set ↔ _
  rw [View.set_slice_whole, Rect.mem_set_unit]
  exact Iff.rfl

/-- Row R of the result lies in the tile of point R / 8000. -/
theorem cover0 (i : S200000x64.Idx) : ∃ t : Fin cfg0.N, (cfg0.win 6).flush t = true ∧ i ∈ ((cfg0.win 6).blk t).view.set := by
  have hi0 : (i 0).val < 200000 := (i 0).isLt
  have hi1 : (i 1).val < 64 := (i 1).isLt
  have hN : cfg0.N = 25 := N_0
  refine ⟨⟨(i 0).val / 8000, by rw [hN]; omega⟩, flush0_6 _, ?_⟩
  rw [mem_blk0]
  obtain ⟨-, -, -, -, -, -, -, -, -, -, -, -, e60, e61⟩ := idx_facts0 ⟨(i 0).val / 8000, by rw [hN]; omega⟩
  intro a
  match a with
  | ⟨0, _⟩ =>
    show win0_6.index _ (0 : Fin 2) * 8000 ≤ (i 0).val ∧ (i 0).val < win0_6.index _ (0 : Fin 2) * 8000 + 8000
    rw [e60]; show (i 0).val / 8000 * 8000 ≤ (i 0).val ∧ (i 0).val < (i 0).val / 8000 * 8000 + 8000; omega
  | ⟨1, _⟩ =>
    show win0_6.index _ (1 : Fin 2) * 64 ≤ (i 1).val ∧ (i 1).val < win0_6.index _ (1 : Fin 2) * 64 + 64
    rw [e61]; omega

/-- Region 0's result array ends holding the layer of the arrays the region found. -/
theorem final0 (c : Dev nD) : (dat0 V c).arrAt 6 cfg0.N = L0 V c :=
  (dat0 V c).arrAt_eq_of_cover 6 (L0 V c) (fun t _ => flushed0_eq V c t) (cover0)

/-! ## Region 1 -/

/-- The layer of the arrays region 1 finds. -/
def L1 (c : Dev nD) : S200000x64.Idx → EReal :=
  layer (n := 200000) (K := 64) (d := 64) (V c main_v16) (V c main_v30) (V c main_arg7) (rowVec (V c main_v31)) (V c main_arg9) (rowVec (V c main_v32))

/-- The printed index maps over the grid: the row-tiled windows sit at block (t, 0), the others at block (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point t writes back is tile t of the layer. -/
theorem flushed1_eq (c : Dev nD) (t : Fin cfg1.N) :
    (dat1 V c).flushed 6 t = ((cfg1.win 6).blk t).view.read (Elt Ideal) (L1 V c) := by
  show (cfg1.win 6).cut (grid1.coords t) ((dat1 V c).after 6 t) = _
  rw [after1_6]
  unfold out1_6
  rw [View.canon_unit_zero zero_offsets]
  simp only [View.ld_unit_zero (S := S8000x64) zero_offsets,
    View.ld_unit_zero (S := S1x64) zero_offsets, View.ld_unit_zero (S := S64x64) zero_offsets]
  obtain ⟨e00, e01, e10, e11, e20, e21, e30, e31, e40, e41, e50, e51, e60, e61⟩ := idx_facts1 t
  have ht : t.val < 25 := by have h := t.isLt; have hN : cfg1.N = 25 := N_1; omega
  funext y
  obtain ⟨r, j, rfl⟩ : ∃ (r : Fin 8000) (j : Fin 64), y = ix2 r j := ⟨y 0, y 1, eq_ix2 y⟩
  show k1_pay1 (F := Ideal) (iblk1 V c 0 t) (iblk1 V c 1 t) (iblk1 V c 2 t) (iblk1 V c 3 t) (iblk1 V c 4 t) (iblk1 V c 5 t) (ix2 r j)
    = L1 V c (((cfg1.win 6).blk t).view.emb (ix2 r j))
  have hR : t.val * 8000 + r.val < 200000 := by have := r.isLt; omega
  have hemb : ((cfg1.win 6).blk t).view.emb (ix2 r j) = ix2 (⟨t.val * 8000 + r.val, hR⟩ : Fin 200000) j := by
    funext a; apply Fin.ext
    match a with
    | ⟨0, _⟩ => show win1_6.index t (0 : Fin 2) * 8000 + 1 * r.val = t.val * 8000 + r.val; rw [e60]; omega
    | ⟨1, _⟩ => show win1_6.index t (1 : Fin 2) * 64 + 1 * j.val = j.val; rw [e61]; omega
  rw [hemb]
  unfold L1
  refine tile1 (V c main_v16) (V c main_v30) (V c main_arg7) (V c main_v31) (V c main_arg9) (V c main_v32) _ _ _ _ _ _ r j ⟨t.val * 8000 + r.val, hR⟩
    (fun k => ?_) (fun k => ?_) (funext fun z => ?_) (funext fun z => ?_) (funext fun z => ?_) (funext fun z => ?_)
  · show V c main_v16 (((cfg1.win 0).blk t).view.emb (ix2 r k)) = V c main_v16 (ix2 ⟨t.val * 8000 + r.val, hR⟩ k)
    refine congrArg (V c main_v16) (funext fun a => Fin.ext ?_)
    match a with
    | ⟨0, _⟩ => show win1_0.index t (0 : Fin 2) * 8000 + 1 * r.val = t.val * 8000 + r.val; rw [e00]; omega
    | ⟨1, _⟩ => show win1_0.index t (1 : Fin 2) * 64 + 1 * k.val = k.val; rw [e01]; omega
  · show V c main_v30 (((cfg1.win 1).blk t).view.emb (ix2 r k)) = V c main_v30 (ix2 ⟨t.val * 8000 + r.val, hR⟩ k)
    refine congrArg (V c main_v30) (funext fun a => Fin.ext ?_)
    match a with
    | ⟨0, _⟩ => show win1_1.index t (0 : Fin 2) * 8000 + 1 * r.val = t.val * 8000 + r.val; rw [e10]; omega
    | ⟨1, _⟩ => show win1_1.index t (1 : Fin 2) * 64 + 1 * k.val = k.val; rw [e11]; omega
  · show V c main_arg7 (((cfg1.win 2).blk t).view.emb z) = V c main_arg7 z
    refine congrArg (V c main_arg7) (funext fun a => Fin.ext ?_)
    match a with
    | ⟨0, _⟩ => show win1_2.index t (0 : Fin 2) * 64 + 1 * (z 0).val = (z 0).val; rw [e20]; omega
    | ⟨1, _⟩ => show win1_2.index t (1 : Fin 2) * 64 + 1 * (z 1).val = (z 1).val; rw [e21]; omega
  · show V c main_v31 (((cfg1.win 3).blk t).view.emb z) = V c main_v31 z
    refine congrArg (V c main_v31) (funext fun a => Fin.ext ?_)
    match a with
    | ⟨0, _⟩ => show win1_3.index t (0 : Fin 2) * 1 + 1 * (z 0).val = (z 0).val; rw [e30]; omega
    | ⟨1, _⟩ => show win1_3.index t (1 : Fin 2) * 64 + 1 * (z 1).val = (z 1).val; rw [e31]; omega
  · show V c main_arg9 (((cfg1.win 4).blk t).view.emb z) = V c main_arg9 z
    refine congrArg (V c main_arg9) (funext fun a => Fin.ext ?_)
    match a with
    | ⟨0, _⟩ => show win1_4.index t (0 : Fin 2) * 64 + 1 * (z 0).val = (z 0).val; rw [e40]; omega
    | ⟨1, _⟩ => show win1_4.index t (1 : Fin 2) * 64 + 1 * (z 1).val = (z 1).val; rw [e41]; omega
  · show V c main_v32 (((cfg1.win 5).blk t).view.emb z) = V c main_v32 z
    refine congrArg (V c main_v32) (funext fun a => Fin.ext ?_)
    match a with
    | ⟨0, _⟩ => show win1_5.index t (0 : Fin 2) * 1 + 1 * (z 0).val = (z 0).val; rw [e50]; omega
    | ⟨1, _⟩ => show win1_5.index t (1 : Fin 2) * 64 + 1 * (z 1).val = (z 1).val; rw [e51]; omega

/-- An index of the result array is in point t's block iff each coordinate is in the block's range on its axis. -/
theorem mem_blk1 (t : Fin cfg1.N) (i : S200000x64.Idx) :
    i ∈ ((cfg1.win 6).blk t).view.set ↔ ∀ a : Fin 2, win1_6.index t a * S8000x64.size a ≤ (i a).val ∧ (i a).val < win1_6.index t a * S8000x64.size a + S8000x64.size a := by
  show i ∈ ((View.whole main_v33).slice (win1_6.rect t)).set ↔ _
  rw [View.set_slice_whole, Rect.mem_set_unit]
  exact Iff.rfl

/-- Row R of the result lies in the tile of point R / 8000. -/
theorem cover1 (i : S200000x64.Idx) : ∃ t : Fin cfg1.N, (cfg1.win 6).flush t = true ∧ i ∈ ((cfg1.win 6).blk t).view.set := by
  have hi0 : (i 0).val < 200000 := (i 0).isLt
  have hi1 : (i 1).val < 64 := (i 1).isLt
  have hN : cfg1.N = 25 := N_1
  refine ⟨⟨(i 0).val / 8000, by rw [hN]; omega⟩, flush1_6 _, ?_⟩
  rw [mem_blk1]
  obtain ⟨-, -, -, -, -, -, -, -, -, -, -, -, e60, e61⟩ := idx_facts1 ⟨(i 0).val / 8000, by rw [hN]; omega⟩
  intro a
  match a with
  | ⟨0, _⟩ =>
    show win1_6.index _ (0 : Fin 2) * 8000 ≤ (i 0).val ∧ (i 0).val < win1_6.index _ (0 : Fin 2) * 8000 + 8000
    rw [e60]; show (i 0).val / 8000 * 8000 ≤ (i 0).val ∧ (i 0).val < (i 0).val / 8000 * 8000 + 8000; omega
  | ⟨1, _⟩ =>
    show win1_6.index _ (1 : Fin 2) * 64 ≤ (i 1).val ∧ (i 1).val < win1_6.index _ (1 : Fin 2) * 64 + 64
    rw [e61]; omega

/-- Region 1's result array ends holding the layer of the arrays the region found. -/
theorem final1 (c : Dev nD) : (dat1 V c).arrAt 6 cfg1.N = L1 V c :=
  (dat1 V c).arrAt_eq_of_cover 6 (L1 V c) (fun t _ => flushed1_eq V c t) (cover1)

end Cert.Gin

end
-- ==== Proof.KernelValue.lean ====
/-
  The kernel program's result buffer after its run, as the network of the thirteen arguments.

  The program is three stretches of whole-array operations around two row-tiled regions.  Read from the end: the
  result is the readout of what the second region wrote; that is a layer of what the first region wrote and of its
  neighbour sums, under the second pair of weights; and the first region wrote a layer of the input features and of
  their neighbour sums.  Between them every argument buffer keeps its launch contents, and a bias handed to a region
  as a row [1, 64] reads back as the bias vector.
-/
import proofs.«116676_j64209761075688_1_alg».proof.Proof.KernelFinal
import proofs.«116676_j64209761075688_1_alg».proof.Proof.LibBiasRows
import Idealize.ShloMosaic.Lib.StableHlo.Run

set_option maxRecDepth 16384

noncomputable section

namespace Cert.Gin

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-- A vector laid out as a row and read back as a vector is the vector. -/
theorem rowVec_cast {d : ℕ} (b : (⟨1, ![d]⟩ : Shape).Idx → EReal) (h : (⟨1, ![d]⟩ : Shape).ShapeCasts ⟨2, ![1, d]⟩) :
    rowVec (shapeCast ⟨2, ![1, d]⟩ b h) = b := by
  funext q
  obtain ⟨j, rfl⟩ : ∃ j : Fin d, q = ix1 j := ⟨q 0, eq_ix1 q⟩
  exact Cert.LibBiasRows.row_of_vector b h j

/-! ## The two later stretches of whole-array operations, from any contents -/

set_option maxHeartbeats 4000000 in
/-- The second stretch computes the neighbour sums of the first region's result along the same edges. -/
theorem stretch1_v30 (W : Valuation τ sig (Elt Ideal)) :
    StableHlo.after hostOps1 W (Proc.devRef .tc main_v30) = agg64 (W (Proc.devRef .tc main_v16)) (W (Proc.devRef .tc main_arg1)) := by
  after_results
  rfl

set_option maxHeartbeats 4000000 in
/-- The last stretch is the readout of the second region's result. -/
theorem stretch2_v50 (W : Valuation τ sig (Elt Ideal)) :
    StableHlo.after hostOps2 W (Proc.devRef .tc main_v50)
      = readout (W (Proc.devRef .tc main_v33)) (W (Proc.devRef .tc main_arg2)) (W (Proc.devRef .tc main_arg11)) (W (Proc.devRef .tc main_arg12)) := by
  after_results
  rfl

/-! ## Before the first region -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg7 (c : Dev nD) : V1 m ρ c main_arg7 = m ((c : Thread nD τ).loc main_arg7) := by
  show StableHlo.after hostOps0 (W0 m ρ c) (Proc.devRef .tc main_arg7) = _
  after_results
theorem V1_arg8 (c : Dev nD) : V1 m ρ c main_arg8 = m ((c : Thread nD τ).loc main_arg8) := by
  show StableHlo.after hostOps0 (W0 m ρ c) (Proc.devRef .tc main_arg8) = _
  after_results
theorem V1_arg9 (c : Dev nD) : V1 m ρ c main_arg9 = m ((c : Thread nD τ).loc main_arg9) := by
  show StableHlo.after hostOps0 (W0 m ρ c) (Proc.devRef .tc main_arg9) = _
  after_results
theorem V1_arg10 (c : Dev nD) : V1 m ρ c main_arg10 = m ((c : Thread nD τ).loc main_arg10) := by
  show StableHlo.after hostOps0 (W0 m ρ c) (Proc.devRef .tc main_arg10) = _
  after_results
theorem V1_arg11 (c : Dev nD) : V1 m ρ c main_arg11 = m ((c : Thread nD τ).loc main_arg11) := by
  show StableHlo.after hostOps0 (W0 m ρ c) (Proc.devRef .tc main_arg11) = _
  after_results
theorem V1_arg12 (c : Dev nD) : V1 m ρ c main_arg12 = m ((c : Thread nD τ).loc main_arg12) := by
  show StableHlo.after hostOps0 (W0 m ρ c) (Proc.devRef .tc main_arg12) = _
  after_results

/-- The neighbour sums the first region is handed. -/
theorem V1_v13 (c : Dev nD) : V1 m ρ c main_v13 = agg128 (m ((c : Thread nD τ).loc main_arg0)) (m ((c : Thread nD τ).loc main_arg1)) := by
  show StableHlo.after hostOps0 (W0 m ρ c) (Proc.devRef .tc main_v13) = _
  after_results
  rfl
/-- Its two bias rows. -/
theorem V1_v14 (c : Dev nD) : V1 m ρ c main_v14 = shapeCast S1x64 (m ((c : Thread nD τ).loc main_arg4)) shapeCasts_S64_S1x64 := by
  show StableHlo.after hostOps0 (W0 m ρ c) (Proc.devRef .tc main_v14) = _
  after_results
  rfl
theorem V1_v15 (c : Dev nD) : V1 m ρ c main_v15 = shapeCast S1x64 (m ((c : Thread nD τ).loc main_arg6)) shapeCasts_S64_S1x64 := by
  show StableHlo.after hostOps0 (W0 m ρ c) (Proc.devRef .tc main_v15) = _
  after_results
  rfl

/-- The first layer's output as a function of the arguments. -/
def h1 (c : Dev nD) : S200000x64.Idx → EReal :=
  layer (n := 200000) (K := 128) (d := 64) (m ((c : Thread nD τ).loc main_arg0)) (agg128 (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))

/-- What the first region leaves in its result array. -/
theorem W2_v16 (c : Dev nD) : W2 m ρ c (Proc.devRef .tc main_v16) = h1 m c := by
  refine (W2_arr m ρ c 6).trans ?_
  rw [final0]
  unfold L0 h1
  rw [V1_arg0, V1_v13, V1_arg3, V1_v14, V1_arg5, V1_v15, rowVec_cast, rowVec_cast]

/-! ## Between the regions -/

theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg7 (c : Dev nD) : W2 m ρ c (Proc.devRef .tc main_arg7) = m ((c : Thread nD τ).loc main_arg7) :=
  (W2_of_ne m ρ c main_arg7 (by decide)).trans (V1_arg7 m ρ c)
theorem W2_arg8 (c : Dev nD) : W2 m ρ c (Proc.devRef .tc main_arg8) = m ((c : Thread nD τ).loc main_arg8) :=
  (W2_of_ne m ρ c main_arg8 (by decide)).trans (V1_arg8 m ρ c)
theorem W2_arg9 (c : Dev nD) : W2 m ρ c (Proc.devRef .tc main_arg9) = m ((c : Thread nD τ).loc main_arg9) :=
  (W2_of_ne m ρ c main_arg9 (by decide)).trans (V1_arg9 m ρ c)
theorem W2_arg10 (c : Dev nD) : W2 m ρ c (Proc.devRef .tc main_arg10) = m ((c : Thread nD τ).loc main_arg10) :=
  (W2_of_ne m ρ c main_arg10 (by decide)).trans (V1_arg10 m ρ c)
theorem W2_arg11 (c : Dev nD) : W2 m ρ c (Proc.devRef .tc main_arg11) = m ((c : Thread nD τ).loc main_arg11) :=
  (W2_of_ne m ρ c main_arg11 (by decide)).trans (V1_arg11 m ρ c)
theorem W2_arg12 (c : Dev nD) : W2 m ρ c (Proc.devRef .tc main_arg12) = m ((c : Thread nD τ).loc main_arg12) :=
  (W2_of_ne m ρ c main_arg12 (by decide)).trans (V1_arg12 m ρ c)
theorem V3_arg2 (c : Dev nD) : V3 m ρ c main_arg2 = m ((c : Thread nD τ).loc main_arg2) := by
  show StableHlo.after hostOps1 (W2 m ρ c) (Proc.devRef .tc main_arg2) = _
  after_results
  exact W2_arg2 m ρ c
theorem V3_arg7 (c : Dev nD) : V3 m ρ c main_arg7 = m ((c : Thread nD τ).loc main_arg7) := by
  show StableHlo.after hostOps1 (W2 m ρ c) (Proc.devRef .tc main_arg7) = _
  after_results
  exact W2_arg7 m ρ c
theorem V3_arg9 (c : Dev nD) : V3 m ρ c main_arg9 = m ((c : Thread nD τ).loc main_arg9) := by
  show StableHlo.after hostOps1 (W2 m ρ c) (Proc.devRef .tc main_arg9) = _
  after_results
  exact W2_arg9 m ρ c
theorem V3_arg11 (c : Dev nD) : V3 m ρ c main_arg11 = m ((c : Thread nD τ).loc main_arg11) := by
  show StableHlo.after hostOps1 (W2 m ρ c) (Proc.devRef .tc main_arg11) = _
  after_results
  exact W2_arg11 m ρ c
theorem V3_arg12 (c : Dev nD) : V3 m ρ c main_arg12 = m ((c : Thread nD τ).loc main_arg12) := by
  show StableHlo.after hostOps1 (W2 m ρ c) (Proc.devRef .tc main_arg12) = _
  after_results
  exact W2_arg12 m ρ c

theorem V3_v16 (c : Dev nD) : V3 m ρ c main_v16 = h1 m c := by
  show StableHlo.after hostOps1 (W2 m ρ c) (Proc.devRef .tc main_v16) = _
  after_results
  exact W2_v16 m ρ c
/-- The neighbour sums the second region is handed. -/
theorem V3_v30 (c : Dev nD) : V3 m ρ c main_v30 = agg64 (h1 m c) (m ((c : Thread nD τ).loc main_arg1)) := by
  show StableHlo.after hostOps1 (W2 m ρ c) (Proc.devRef .tc main_v30) = _
  rw [stretch1_v30, W2_v16, W2_arg1]
theorem V3_v31 (c : Dev nD) : V3 m ρ c main_v31 = shapeCast S1x64 (m ((c : Thread nD τ).loc main_arg8)) shapeCasts_S64_S1x64 := by
  show StableHlo.after hostOps1 (W2 m ρ c) (Proc.devRef .tc main_v31) = _
  after_results
  rw [W2_arg8]
  rfl
theorem V3_v32 (c : Dev nD) : V3 m ρ c main_v32 = shapeCast S1x64 (m ((c : Thread nD τ).loc main_arg10)) shapeCasts_S64_S1x64 := by
  show StableHlo.after hostOps1 (W2 m ρ c) (Proc.devRef .tc main_v32) = _
  after_results
  rw [W2_arg10]
  rfl

/-- The second layer's output as a function of the arguments. -/
def h2 (c : Dev nD) : S200000x64.Idx → EReal :=
  layer (n := 200000) (K := 64) (d := 64) (h1 m c) (agg64 (h1 m c) (m ((c : Thread nD τ).loc main_arg1))) (m ((c : Thread nD τ).loc main_arg7)) (m ((c : Thread nD τ).loc main_arg8)) (m ((c : Thread nD τ).loc main_arg9)) (m ((c : Thread nD τ).loc main_arg10))

/-- What the second region leaves in its result array. -/
theorem W4_v33 (c : Dev nD) : W4 m ρ c (Proc.devRef .tc main_v33) = h2 m c := by
  refine (W4_arr m ρ c 6).trans ?_
  rw [final1]
  unfold L1 h2
  rw [V3_v16, V3_v30, V3_arg7, V3_v31, V3_arg9, V3_v32, rowVec_cast, rowVec_cast]

/-! ## After the second region -/

theorem W4_arg2 (c : Dev nD) : W4 m ρ c (Proc.devRef .tc main_arg2) = m ((c : Thread nD τ).loc main_arg2) :=
  (W4_of_ne m ρ c main_arg2 (by decide)).trans (V3_arg2 m ρ c)
theorem W4_arg11 (c : Dev nD) : W4 m ρ c (Proc.devRef .tc main_arg11) = m ((c : Thread nD τ).loc main_arg11) :=
  (W4_of_ne m ρ c main_arg11 (by decide)).trans (V3_arg11 m ρ c)
theorem W4_arg12 (c : Dev nD) : W4 m ρ c (Proc.devRef .tc main_arg12) = m ((c : Thread nD τ).loc main_arg12) :=
  (W4_of_ne m ρ c main_arg12 (by decide)).trans (V3_arg12 m ρ c)

/-- The result buffer after the last stretch: the readout of the second layer's output. -/
theorem kernel_value (c : Dev nD) :
    W5 m ρ c (Proc.devRef .tc main_v50)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v50) = _
  rw [stretch2_v50, W4_v33, W4_arg2, W4_arg11, W4_arg12]
  rfl

end Cert.Gin

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.HostLayer.lean ====
/-
  The host's spelling of one layer of the network is the layer of the specification.

  The host writes a layer of the graph network as whole-array operations: the sum of the node features and the
  neighbour sums, a dense product with the first weight, the first bias laid out as a row and repeated down the rows, an
  elementwise maximum against a splat of the zero word, and the same three steps again with the second weight and bias.
  Read at an entry (r, j): an elementwise operation reads its operands at (r, j); the repeated row reads the bias at j;
  the splat reads the zero word's value; a dense product reads the row r of its left operand against the column j of
  its right operand, a finite sum over the contraction index.  The inner product sits under the outer sum at the
  entries (r, k).  That is the specification's layer, entry by entry.  No finiteness is needed: every step is an
  equation between sums, maxima and products on the extended reals.
-/
import proofs.«116676_j64209761075688_1_alg».proof.Proof.Spec
import proofs.«116676_j64209761075688_1_alg».proof.Proof.LibDense
import Idealize.ShloMosaic.Lib.Pipeline.Value

noncomputable section

namespace Cert.Gin

open Idealize.ShloMosaic Idealize.ShloMosaic.ValueIdx

/-- The splat of the zero word, at any entry, is the zero word's value. -/
theorem zero_splat {n d : ℕ} (h0 : (⟨0, ![]⟩ : Shape).BroadcastsInDim ⟨2, ![n, d]⟩ ![])
    (i : (⟨2, ![n, d]⟩ : Shape).Idx) :
    broadcastInDim ⟨2, ![n, d]⟩ ![] h0 (constant (F := Ideal) ⟨0, ![]⟩ .f32 0x00000000#32) i = zeroW := rfl

/-- A vector b : [d] laid out as a row [1, d] and repeated down n rows, at entry (r, j), is b j. -/
theorem bias_rows {n d : ℕ} (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![n, d]⟩ ![0, 1]) (i : (⟨2, ![n, d]⟩ : Shape).Idx) :
    broadcastInDim ⟨2, ![n, d]⟩ ![0, 1] h2 (broadcastInDim ⟨2, ![1, d]⟩ ![1] h1 b) i = b (ix1 (i 1)) := by
  have hlt : (i 1).val < d := idx2_lt1 i
  refine (broadcastInDim_apply _ h2 _ i (ix2 ⟨0, Nat.one_pos⟩ (i 1)) (fun a => ?_)).trans ?_
  · match a with
    | ⟨0, _⟩ => exact (if_pos rfl).symm
    | ⟨1, _⟩ =>
      show (i 1).val = if d = 1 then 0 else (i 1).val
      split
      · omega
      · rfl
  · refine broadcastInDim_apply _ h1 b _ (ix1 (i 1)) (fun a => ?_)
    match a with
    | ⟨0, _⟩ =>
      show (i 1).val = if d = 1 then 0 else (i 1).val
      split
      · omega
      · rfl

/-- The host's spelling of the inner dense map, its bias and its rectifier is the hidden activations. -/
theorem host_hidden {n K d : ℕ} (x agg : FVec Ideal ⟨2, ![n, K]⟩ .f32) (wa : FVec Ideal ⟨2, ![K, d]⟩ .f32)
    (ba : FVec Ideal ⟨1, ![d]⟩ .f32)
    (h0 : (⟨0, ![]⟩ : Shape).BroadcastsInDim ⟨2, ![n, d]⟩ ![])
    (h1 : (⟨1, ![d]⟩ : Shape).BroadcastsInDim ⟨2, ![1, d]⟩ ![1])
    (h2 : (⟨2, ![1, d]⟩ : Shape).BroadcastsInDim ⟨2, ![n, d]⟩ ![0, 1]) :
    maximumf (addf (Host.dotGeneral (F := Ideal) (DotDims.plain n K d) none (addf x agg) wa)
          (broadcastInDim ⟨2, ![n, d]⟩ ![0, 1] h2 (broadcastInDim ⟨2, ![1, d]⟩ ![1] h1 ba)))
        (broadcastInDim ⟨2, ![n, d]⟩ ![] h0 (constant (F := Ideal) ⟨0, ![]⟩ .f32 0x00000000#32))
      = hidden x agg wa ba := by
  funext j
  have hd : Host.dotGeneral (F := Ideal) (DotDims.plain n K d) none (addf x agg) wa j
      = ∑ k : Fin K, (x (ix2 (j 0) k) + agg (ix2 (j 0) k)) * wa (ix2 k (j 1)) :=
    LibDense.dotGeneral_plain .single (addf x agg) wa j
  show max (Host.dotGeneral (F := Ideal) (DotDims.plain n K d) none (addf x agg) wa j
        + broadcastInDim ⟨2, ![n, d]⟩ ![0, 1] h2 (broadcastInDim ⟨2, ![1, d]⟩ ![1] h1 ba) j)
      (broadcastInDim ⟨2, ![n, d]⟩ ![] h0 (constant (F := Ideal) ⟨0, ![]⟩ .f32 0x00000000#32) j)
    = max ((∑ k : Fin K, (x (ix2 (j 0) k) + agg (ix2 (j 0) k)) * wa (ix2 k (j 1))) + ba (ix1 (j 1))) zeroW
  rw [hd, bias_rows ba h1 h2 j, zero_splat h0 j]

/-- The host's spelling of one layer is the layer. -/
theorem host_layer {n K d : ℕ} (x agg : FVec Ideal ⟨2, ![n, K]⟩ .f32) (wa : FVec Ideal ⟨2, ![K, d]⟩ .f32)
    (ba : FVec Ideal ⟨1, ![d]⟩ .f32) (wb : FVec Ideal ⟨2, ![d, d]⟩ .f32) (bb : FVec Ideal ⟨1, ![d]⟩ .f32)
    (h0 : (⟨0, ![]⟩ : Shape).BroadcastsInDim ⟨2, ![n, d]⟩ ![])
    (h1 : (⟨1, ![d]⟩ : Shape).BroadcastsInDim ⟨2, ![1, d]⟩ ![1])
    (h2 : (⟨2, ![1, d]⟩ : Shape).BroadcastsInDim ⟨2, ![n, d]⟩ ![0, 1]) :
    maximumf (addf (Host.dotGeneral (F := Ideal) (DotDims.plain n d d) none
        (maximumf (addf (Host.dotGeneral (F := Ideal) (DotDims.plain n K d) none (addf x agg) wa)
            (broadcastInDim ⟨2, ![n, d]⟩ ![0, 1] h2 (broadcastInDim ⟨2, ![1, d]⟩ ![1] h1 ba)))
          (broadcastInDim ⟨2, ![n, d]⟩ ![] h0 (constant (F := Ideal) ⟨0, ![]⟩ .f32 0x00000000#32))) wb)
        (broadcastInDim ⟨2, ![n, d]⟩ ![0, 1] h2 (broadcastInDim ⟨2, ![1, d]⟩ ![1] h1 bb)))
      (broadcastInDim ⟨2, ![n, d]⟩ ![] h0 (constant (F := Ideal) ⟨0, ![]⟩ .f32 0x00000000#32))
    = layer x agg wa ba wb bb := by
  rw [host_hidden x agg wa ba h0 h1 h2]
  funext i
  have hd : Host.dotGeneral (F := Ideal) (DotDims.plain n d d) none (hidden x agg wa ba) wb i
      = ∑ k : Fin d, hidden x agg wa ba (ix2 (i 0) k) * wb (ix2 k (i 1)) :=
    LibDense.dotGeneral_plain .single (hidden x agg wa ba) wb i
  show max (Host.dotGeneral (F := Ideal) (DotDims.plain n d d) none (hidden x agg wa ba) wb i
        + broadcastInDim ⟨2, ![n, d]⟩ ![0, 1] h2 (broadcastInDim ⟨2, ![1, d]⟩ ![1] h1 bb) i)
      (broadcastInDim ⟨2, ![n, d]⟩ ![] h0 (constant (F := Ideal) ⟨0, ![]⟩ .f32 0x00000000#32) i)
    = max ((∑ k : Fin d, hidden x agg wa ba (ix2 (i 0) k) * wb (ix2 k (i 1))) + bb (ix1 (i 1))) zeroW
  rw [hd, bias_rows bb h1 h2 i, zero_splat h0 i]

end Cert.Gin

end
-- ==== Proof.RefValue.lean ====
/-
  The reference program's result is the network of the specification.

  The reference's result is one composed term of its thirteen arguments.  Reading that term from the outside in: the
  readout of the second layer's output; the second layer in the host's spelling, applied to the first layer's output
  and to its neighbour sums; the first layer in the host's spelling, applied to the node features and to their
  neighbour sums.  The neighbour sums and the readout are the specification's own whole-array functions, so nothing
  about them is needed.  A layer in the host's spelling is the specification's layer (the general lemma about a dense
  map, a bias row and a rectifier, twice), at the two sizes 200000 × 128 → 64 and 200000 × 64 → 64.  Replacing both
  gives the network.
-/
import proofs.«116676_j64209761075688_1_alg».proof.Proof.Spec
import proofs.«116676_j64209761075688_1_alg».proof.Proof.HostLayer
import proofs.«116676_j64209761075688_1_alg».proof.Proof.Gen.ReferenceIdeal.Run

noncomputable section

namespace Cert.Gin

open Idealize.ShloMosaic Idealize.ShloMosaic.ValueIdx Cert.ReferenceIdeal Cert.ReferenceIdeal.Facts₀ Cert.ReferenceIdeal.Facts

/-- The first layer as the host spells it: 128 input channels, 64 hidden and output channels. -/
def hostLayer128 (x agg : FArr S200000x128) (wa : FArr S128x64) (ba : FArr S64) (wb : FArr S64x64) (bb : FArr S64) :
    FArr S200000x64 :=
  maximumf (addf (Host.dotGeneral (F := Ideal) (φ₁ := .f32) (φ₂ := .f32) dot_S200000x64_S64x64_S200000x64_1_0_0_1_n_n none
      (maximumf (addf (Host.dotGeneral (F := Ideal) (φ₁ := .f32) (φ₂ := .f32) dot_S200000x128_S128x64_S200000x64_1_0_0_1_n_n none (addf x agg) wa)
          (broadcastInDim S200000x64 ![0, 1] bcast_S1x64_S200000x64_0_1 (broadcastInDim S1x64 ![1] bcast_S64_S1x64_1 ba)))
        (broadcastInDim S200000x64 ![] bcast_S_S200000x64 (constant (F := Ideal) S_ .f32 0x00000000#32))) wb)
      (broadcastInDim S200000x64 ![0, 1] bcast_S1x64_S200000x64_0_1 (broadcastInDim S1x64 ![1] bcast_S64_S1x64_1 bb)))
    (broadcastInDim S200000x64 ![] bcast_S_S200000x64 (constant (F := Ideal) S_ .f32 0x00000000#32))

/-- The second layer as the host spells it: 64 channels throughout. -/
def hostLayer64 (x agg : FArr S200000x64) (wa : FArr S64x64) (ba : FArr S64) (wb : FArr S64x64) (bb : FArr S64) :
    FArr S200000x64 :=
  maximumf (addf (Host.dotGeneral (F := Ideal) (φ₁ := .f32) (φ₂ := .f32) dot_S200000x64_S64x64_S200000x64_1_0_0_1_n_n none
      (maximumf (addf (Host.dotGeneral (F := Ideal) (φ₁ := .f32) (φ₂ := .f32) dot_S200000x64_S64x64_S200000x64_1_0_0_1_n_n none (addf x agg) wa)
          (broadcastInDim S200000x64 ![0, 1] bcast_S1x64_S200000x64_0_1 (broadcastInDim S1x64 ![1] bcast_S64_S1x64_1 ba)))
        (broadcastInDim S200000x64 ![] bcast_S_S200000x64 (constant (F := Ideal) S_ .f32 0x00000000#32))) wb)
      (broadcastInDim S200000x64 ![0, 1] bcast_S1x64_S200000x64_0_1 (broadcastInDim S1x64 ![1] bcast_S64_S1x64_1 bb)))
    (broadcastInDim S200000x64 ![] bcast_S_S200000x64 (constant (F := Ideal) S_ .f32 0x00000000#32))

/-- The first layer in the host's spelling is the layer: the printed dimension records are the plain
    rows-by-columns ones. -/
theorem hostLayer128_eq (x agg : FArr S200000x128) (wa : FArr S128x64) (ba : FArr S64) (wb : FArr S64x64) (bb : FArr S64) :
    hostLayer128 x agg wa ba wb bb = layer (n := 200000) (K := 128) (d := 64) x agg wa ba wb bb :=
  host_layer (n := 200000) (K := 128) (d := 64) x agg wa ba wb bb bcast_S_S200000x64 bcast_S64_S1x64_1 bcast_S1x64_S200000x64_0_1

/-- The second layer in the host's spelling is the layer. -/
theorem hostLayer64_eq (x agg : FArr S200000x64) (wa : FArr S64x64) (ba : FArr S64) (wb : FArr S64x64) (bb : FArr S64) :
    hostLayer64 x agg wa ba wb bb = layer (n := 200000) (K := 64) (d := 64) x agg wa ba wb bb :=
  host_layer (n := 200000) (K := 64) (d := 64) x agg wa ba wb bb bcast_S_S200000x64 bcast_S64_S1x64_1 bcast_S1x64_S200000x64_0_1

/-- The reference's result, read from the outside in: the readout of the second host layer over the first. -/
theorem reference_value_host (m : (ℓ : Loc nD τ sig) → Buf (Elt Ideal) ℓ) (c : Dev nD) :
    Cert.ReferenceIdeal.Value.res_main_v70 (F := Ideal) m c
      = readout
          (hostLayer64
            (hostLayer128 (m ((c.tc : Thread nD τ).loc main_arg0))
              (agg128 (m ((c.tc : Thread nD τ).loc main_arg0)) (m ((c.tc : Thread nD τ).loc main_arg1)))
              (m ((c.tc : Thread nD τ).loc main_arg3)) (m ((c.tc : Thread nD τ).loc main_arg4))
              (m ((c.tc : Thread nD τ).loc main_arg5)) (m ((c.tc : Thread nD τ).loc main_arg6)))
            (agg64
              (hostLayer128 (m ((c.tc : Thread nD τ).loc main_arg0))
                (agg128 (m ((c.tc : Thread nD τ).loc main_arg0)) (m ((c.tc : Thread nD τ).loc main_arg1)))
                (m ((c.tc : Thread nD τ).loc main_arg3)) (m ((c.tc : Thread nD τ).loc main_arg4))
                (m ((c.tc : Thread nD τ).loc main_arg5)) (m ((c.tc : Thread nD τ).loc main_arg6)))
              (m ((c.tc : Thread nD τ).loc main_arg1)))
            (m ((c.tc : Thread nD τ).loc main_arg7)) (m ((c.tc : Thread nD τ).loc main_arg8))
            (m ((c.tc : Thread nD τ).loc main_arg9)) (m ((c.tc : Thread nD τ).loc main_arg10)))
          (m ((c.tc : Thread nD τ).loc main_arg2)) (m ((c.tc : Thread nD τ).loc main_arg11))
          (m ((c.tc : Thread nD τ).loc main_arg12)) := by
  unfold Cert.ReferenceIdeal.Value.res_main_v70
  rfl

/-- The reference's result is the network of its thirteen arguments. -/
theorem reference_value (m : (ℓ : Loc nD τ sig) → Buf (Elt Ideal) ℓ) (c : Dev nD) :
    Cert.ReferenceIdeal.Value.res_main_v70 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  rw [reference_value_host m c, hostLayer128_eq, hostLayer64_eq]
  rfl

end Cert.Gin

end
-- ==== Proof.lean ====
/-
  The certificate: a two-layer graph isomorphism network (neighbour sums by gather and accumulating scatter, a
  two-matrix perceptron with a rectifier after each matrix, a mean-pool readout and a linear head), whose perceptrons
  run as two row-tiled kernels, against the same network written with whole-array matrix products.

  On the extended reals both programs compute ONE function of the thirteen arguments, `Cert.Gin.network`.  The
  gathers, scatters and the readout are the same whole-array operations in both programs and are never opened.  What
  differs is the perceptron: the kernels add the neighbour sums to the features tile by tile, change float format on
  the way into each product (the identity at the exact values) and take the bias as a row [1, 64]; the reference
  forms the products over all 200000 rows at once.  Each entry of a layer is a finite sum over one row of its inputs,
  so the tiles of the layer are the layer of the tiles and the 25 tiles fill the array; sums on the extended reals are
  sums in a commutative monoid, so no finiteness of the inputs is used anywhere and the precondition is never opened.
  The idealization rewrote nothing, so its conjunct is trivial.  The three frames are the generated ones (the
  reference's is its generated run with the result dropped).
-/
import proofs.«116676_j64209761075688_1_alg».proof.Defs
import proofs.«116676_j64209761075688_1_alg».proof.Proof.Gen.Kernel
import proofs.«116676_j64209761075688_1_alg».proof.Proof.Gen.Kernel.Skeleton
import proofs.«116676_j64209761075688_1_alg».proof.Proof.Gen.Kernel.Launch
import proofs.«116676_j64209761075688_1_alg».proof.Proof.Gen.Kernel.Points
import proofs.«116676_j64209761075688_1_alg».proof.Proof.Gen.Kernel.Frame
import proofs.«116676_j64209761075688_1_alg».proof.Proof.Gen.KernelIdeal
import proofs.«116676_j64209761075688_1_alg».proof.Proof.Gen.KernelIdeal.Skeleton
import proofs.«116676_j64209761075688_1_alg».proof.Proof.Gen.KernelIdeal.Launch
import proofs.«116676_j64209761075688_1_alg».proof.Proof.Gen.KernelIdeal.Points
import proofs.«116676_j64209761075688_1_alg».proof.Proof.Gen.KernelIdeal.Frame
import proofs.«116676_j64209761075688_1_alg».proof.Proof.Gen.ReferenceIdeal
import proofs.«116676_j64209761075688_1_alg».proof.Proof.Gen.Pre_finite_inputs
import proofs.«116676_j64209761075688_1_alg».proof.Proof.Gen.ReferenceIdeal.Run
import proofs.«116676_j64209761075688_1_alg».proof.Proof.KernelRun
import proofs.«116676_j64209761075688_1_alg».proof.Proof.KernelValue
import proofs.«116676_j64209761075688_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- From memories that agree on the thirteen arguments both programs end with the network of those arguments in
    their result buffer. -/
theorem algebraic : Cert.algebraic_KernelIdeal_ReferenceIdeal := by
  intro m ρ m' ρ' _ hagree
  refine ⟨fun c => Cert.Gin.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono (fun _ h c => ⟨(h c).1.trans (Cert.Gin.kernel_value m ρ c), (h c).2⟩)
      (Cert.Gin.kernel_run (F := Ideal) m ρ)
  · refine (θ_run Cert.ReferenceIdeal.defs _ _).mono (fun _ h c => ⟨(h c).1.trans ?_, (h c).2⟩)
      (Cert.ReferenceIdeal.Value.run (F := Ideal) m' ρ')
    rw [Cert.Gin.reference_value m' c]
    obtain ⟨e0, e1, e2, e3, e4, e5, e6, e7, e8, e9, e10, e11, e12⟩ := hagree c
    rw [e0, e1, e2, e3, e4, e5, e6, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
